-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S4x2048x1024 .f32) (main_arg1 : FVec F S4x2048x1024 .f32) (main_arg2 : FVec F S4x2048x1024 .f32) (main_arg3 : IVec S4x2048x2048 1) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 23
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4x2048x1024, .bf16⟩
  | .hbm, ⟨20, _⟩ => ⟨S4x2048x1024, .bf16⟩
  | .hbm, ⟨21, _⟩ => ⟨S4x2048x1024, .bf16⟩
  | .hbm, ⟨22, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x512x1024, .f32⟩
  | .local _ .vmem, ⟨23, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x2048x1024.size a
  hwx0_1 : ∀ i : grid0.Coords, EltTy.bits .f32 = 32 ∨ (Rect.block (s := S4x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x1024.size a
  hwx0_2 : ∀ i : grid0.Coords, EltTy.bits .f32 = 32 ∨ (Rect.block (s := S4x2048x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S4x2048x1024.size a
  hwx0_9 : ∀ i : grid0.Coords, EltTy.bits .bf16 = 32 ∨ (Rect.block (s := S4x2048x1024) S1x512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x1024.size a ≤ S4x2048x1024.size a
  hwx0_10 : ∀ i : grid0.Coords, EltTy.bits .bf16 = 32 ∨ (Rect.block (s := S4x2048x1024) S1x512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1024.size a ≤ S4x2048x1024.size a
  hwx0_11 : ∀ i : grid0.Coords, EltTy.bits .bf16 = 32 ∨ (Rect.block (s := S4x2048x1024) S1x512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S1x512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S1x512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_2) S1x512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v9_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x2048, .i1⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.RunOut.lean ====
/-
  The idealized kernel's run with its result named.

  The program is a stretch of host operations (three weight matrices transposed, three biases given a unit row axis)
  followed by two kernel regions: the first writes the three projected arrays, the second reads them and writes the
  result. The contents of every buffer at each boundary are a fold from the launch memory: after the host stretch,
  after the first region (its output arrays at what its write-backs leave), after the second. Every weakly fair
  execution terminates, and the final memory holds, at each unscoped buffer, the last boundary's contents; read at
  the result's buffer this names the result, and read at the arguments it says they are as launched.
-/
import proofs.«162677_j39676907885324_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result's buffer ends at the last boundary's contents
    and every argument as launched. -/
theorem run : θ_run defs (onTc (τ := τ) (main (F := F))) ⟨m, fun _ => 0, ρ⟩ (fun r => ∀ c : Dev nD,
      r.2.mem ((c.tc : Thread nD τ).loc main_v10) = W3 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v10 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Out

end
-- ==== Proof.Spec.lean ====
/-
  Scaled dot-product attention over projected inputs, as functions on the extended reals.

  A linear projection sends a row x of length 1024 to the row whose entry e is the sum over d of x d times the
  weight at (d, e), plus the bias at e. One query row q against the 2048 key rows of its batch has the scores
  s k = (sum over d of q d * K k d) * 2⁻⁵; the row's maximum M is the fold of max over the scores from -inf; the
  weights are exp (s k - M) divided by the sum over k' of exp (s k' - M); the output entry e is the sum over k of
  weight k times the value row k at e. The whole-array functions read these rows out of arrays of shape
  [4, 2048, 1024]: entry (b, r, e) of the attention depends on query row (b, r) and on all keys and values of batch b.

  The one law used between the two programs: dividing by the f32 word of 32 is multiplying by the f32 word of 1/32,
  on every extended real, the infinities included.
-/
import Idealize.ShloMosaic.PureOps.Ideal
import Idealize.ShloMosaic.Lib.ValueIdx

noncomputable section

namespace Cert.Attention

open Idealize.ShloMosaic Idealize.ShloMosaic.ValueIdx
open scoped BigOperators

/-- The f32 word 0x3D000000 is 2⁻⁵ = 1/32. -/
theorem ofBits_inv32 : Ideal.ofBits .f32 0x3D000000#32 = (((1 : ℝ) / 32 : ℝ) : EReal) := by
  simp [Ideal.ofBits, Ideal.ieee, -EReal.coe_mul]; norm_num

/-- The f32 word 0x42000000 is 32. -/
theorem ofBits_32 : Ideal.ofBits .f32 0x42000000#32 = ((32 : ℝ) : EReal) := by
  simp [Ideal.ofBits, Ideal.ieee, -EReal.coe_mul]; norm_num

/-- Dividing by 32 is multiplying by 1/32, on every extended real. -/
theorem div_32 (x : EReal) :
    Ideal.div x (Ideal.ofBits .f32 0x42000000#32) = x * Ideal.ofBits .f32 0x3D000000#32 := by
  rw [ofBits_32, ofBits_inv32]
  exact Ideal.div_coe (by norm_num) x

/-- Entry e of a projected row: the row times column e of the transposed weights, plus the bias. -/
def projRow (x : Fin 1024 → EReal) (Wt : Fin 1024 → Fin 1024 → EReal) (bias : Fin 1024 → EReal) (e : Fin 1024) : EReal :=
  (∑ d : Fin 1024, x d * Wt d e) + bias e

/-- The scaled score of a query row against key row k. -/
def scoreRow (q : Fin 1024 → EReal) (K : Fin 2048 → Fin 1024 → EReal) (k : Fin 2048) : EReal :=
  (∑ d : Fin 1024, q d * K k d) * Ideal.ofBits .f32 0x3D000000#32

/-- The largest score of a row: the fold of max from -inf. -/
def rowMax (s : Fin 2048 → EReal) : EReal :=
  (Finset.univ : Finset (Fin 2048)).fold max (Ideal.ofBits .f32 0xFF800000#32) s

/-- The exponential of a score's distance below the row's maximum. -/
def expRow (s : Fin 2048 → EReal) (k : Fin 2048) : EReal := Ideal.exp (s k - rowMax s)

/-- The softmax weight of key k. -/
def softRow (s : Fin 2048 → EReal) (k : Fin 2048) : EReal :=
  Ideal.div (expRow s k) (∑ k' : Fin 2048, expRow s k')

/-- Entry e of the attention output of one query row. -/
def attnRow (q : Fin 1024 → EReal) (K V : Fin 2048 → Fin 1024 → EReal) (e : Fin 1024) : EReal :=
  ∑ k : Fin 2048, softRow (scoreRow q K) k * V k e

/-- A projected row's entry depends only on the entries of the row, the weights and the bias. -/
theorem projRow_congr {x x' : Fin 1024 → EReal} {Wt Wt' : Fin 1024 → Fin 1024 → EReal} {bias bias' : Fin 1024 → EReal}
    {e e' : Fin 1024} (hx : ∀ d, x d = x' d) (hW : ∀ d c, Wt d c = Wt' d c) (hb : ∀ c, bias c = bias' c) (he : e = e') :
    projRow x Wt bias e = projRow x' Wt' bias' e' := by
  obtain rfl : x = x' := funext hx
  obtain rfl : Wt = Wt' := funext fun d => funext (hW d)
  obtain rfl : bias = bias' := funext hb
  rw [he]

/-- The attention output's entry depends only on the entries of the query row, the keys and the values. -/
theorem attnRow_congr {q q' : Fin 1024 → EReal} {K K' V V' : Fin 2048 → Fin 1024 → EReal} {e e' : Fin 1024}
    (hq : ∀ d, q d = q' d) (hK : ∀ k d, K k d = K' k d) (hV : ∀ k d, V k d = V' k d) (he : e = e') :
    attnRow q K V e = attnRow q' K' V' e' := by
  obtain rfl : q = q' := funext hq
  obtain rfl : K = K' := funext fun k => funext (hK k)
  obtain rfl : V = V' := funext fun k => funext (hV k)
  rw [he]

/-- The shape of the inputs, of the projected arrays and of the result. -/
abbrev SA : Shape := ⟨3, ![4, 2048, 1024]⟩

/-- A projected array: every row of every batch projected, the weights given already transposed ([d, e]) and the
    bias with a unit row axis ([1, e]). -/
def projArr (X : SA.Idx → EReal) (Wt : (⟨2, ![1024, 1024]⟩ : Shape).Idx → EReal)
    (B : (⟨2, ![1, 1024]⟩ : Shape).Idx → EReal) : SA.Idx → EReal := fun i =>
  projRow (fun d => X (ix3 (i 0) (i 1) d)) (fun d e => Wt (ix2 d e)) (fun e => B (ix2 (0 : Fin 1) e)) (i 2)

/-- The attention of whole arrays: entry (b, r, e) from query row (b, r) and batch b's keys and values. -/
def attnArr (Q K V : SA.Idx → EReal) : SA.Idx → EReal := fun i =>
  attnRow (fun d => Q (ix3 (i 0) (i 1) d)) (fun k d => K (ix3 (i 0) k d)) (fun k d => V (ix3 (i 0) k d)) (i 2)

end Cert.Attention

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.PayProj.lean ====
/-
  The projection body's stored values, read at an index.

  The body holds a block of 512 input rows, the transposed weight matrix [d, e] and the bias as a row [1, e]. Entry
  (p, e) of what it stores is row p times column e of the transposed weights, plus the bias at e. The body does this
  three times, once per input; the three stored values are the same function of their own operands.
-/
import proofs.«162677_j39676907885324_2_alg».proof.Proof.Gen.KernelIdeal.Skeleton
import proofs.«162677_j39676907885324_2_alg».proof.Proof.Spec
import proofs.«162677_j39676907885324_2_alg».proof.Proof.LibPlainDot
import proofs.«162677_j39676907885324_2_alg».proof.Proof.LibUnitAxis
import Idealize.ShloMosaic.Lib.Pipeline.Value
import Idealize.ShloMosaic.Lib.ValueIdx
import Idealize.ShloMosaic.PureOps.Ideal.Laws

noncomputable section

namespace Cert.KernelIdeal.ProjPay

open Cert.KernelIdeal Cert.KernelIdeal.Gen Cert.Attention Cert.Lib.UnitAxis
open Idealize.ShloMosaic Idealize.ShloMosaic.ValueIdx
open scoped BigOperators

/-- The bias row spread over the block's rows reads the bias at the column. -/
theorem bias_apply (b : Vec Ideal S1x1024 .f32) (p : Fin 512) (e : Fin 1024) :
    broadcastTo S512x1024 (shapeCast S1x1024 b shapeCasts_S1x1024_S1x1024) broadcasts_S1x1024_S512x1024 (ix2 p e)
      = b (ix2 (0 : Fin 1) e) := by
  refine (broadcastTo_apply _ broadcasts_S1x1024_S512x1024 (ix2 p e) (ix2 (0 : Fin 1) e) fun a => ?_).trans ?_
  · match a with
    | ⟨0, _⟩ => show 0 = if (1 : Nat) = 1 then 0 else _; rw [if_pos rfl]
    | ⟨1, _⟩ => show e.val = if (1024 : Nat) = 1 then 0 else e.val; rw [if_neg (by decide)]
  · rw [shapeCast_self]

/-- The first stored value at (u, p, e): input row p projected, at e. -/
theorem pay_apply (x : Vec Ideal S1x512x1024 .f32) (w : Vec Ideal S1024x1024 .bf16) (b : Vec Ideal S1x1024 .f32)
    (u : Fin 1) (p : Fin 512) (e : Fin 1024) :
    k0_pay2 (F := Ideal) x w b (ix3 u p e)
      = projRow (fun d => x (ix3 (0 : Fin 1) p d)) (fun d e => w (ix2 d e)) (fun e => b (ix2 (0 : Fin 1) e)) e := by
  unfold k0_pay2
  refine (add_apply _ shapeCasts_S512x1024_S1x512x1024 u p e).trans ?_
  unfold projRow
  show (matmul (F := Ideal) dot_S512x1024_S1024x1024_S512x1024_1_0_0_1_n_n none _ _ _ (ix2 p e) : EReal)
      + broadcastTo S512x1024 _ broadcasts_S1x1024_S512x1024 (ix2 p e) = _
  rw [bias_apply]
  refine congrArg (· + b (ix2 (0 : Fin 1) e)) ?_
  refine (Cert.Lib.PlainDot.matmul_zero_apply dot_S512x1024_S1024x1024_S512x1024_1_0_0_1_n_n_wf none _ _ p e).trans ?_
  refine Finset.sum_congr rfl fun d _ => ?_
  show shapeCast S512x1024 x shapeCasts_S1x512x1024_S512x1024 (ix2 p d)
      * shapeCast S1024x1024 w shapeCasts_S1024x1024_S1024x1024 (ix2 d e) = _
  rw [drop_apply x shapeCasts_S1x512x1024_S512x1024 p d, shapeCast_self]

/-- The second stored value is the same function of its operands. -/
theorem pay3_eq (x : Vec Ideal S1x512x1024 .f32) (w : Vec Ideal S1024x1024 .bf16) (b : Vec Ideal S1x1024 .f32) :
    k0_pay3 (F := Ideal) x w b = k0_pay2 x w b := rfl

/-- So is the third, whose input block is cast and narrowed in a separate step. -/
theorem pay14_eq (x : Vec Ideal S1x512x1024 .f32) (w : Vec Ideal S1024x1024 .bf16) (b : Vec Ideal S1x1024 .f32) :
    k0_pay1 (F := Ideal) (k0_pay4 x) w b = k0_pay2 x w b := rfl

end Cert.KernelIdeal.ProjPay

end
-- ==== Proof.Region0.lean ====
/-
  The first region's three result arrays as functions of the arrays it finds.

  The region's grid has a point per batch b and per block of 512 rows. At a point the body holds the block of rows
  (b, 512·r … 512·r + 511) of each of the three inputs, the three transposed weight matrices whole and the three bias
  rows whole, and writes back the same block of rows of each projected array. Entry (p, e) of a stored block is input
  row p projected, at e; read through the blocks that is entry (b, 512·r + p, e) of the projection of the whole input.
  The sixteen blocks tile each array.
-/
import proofs.«162677_j39676907885324_2_alg».proof.Proof.Gen.KernelIdeal.Frame
import proofs.«162677_j39676907885324_2_alg».proof.Proof.PayProj
import Idealize.ShloMosaic.Lib.Pipeline.Value

set_option maxRecDepth 16384

noncomputable section

namespace Cert.KernelIdeal.Region0

open Cert.KernelIdeal Cert.KernelIdeal.Gen Cert.Attention
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

namespace Q

/-- The index maps over the grid: the input block and the output block move together, the weights and the bias are
    whole, and the block indices stay in range. -/
theorem idx_facts : ∀ t : Fin cfg0.N,
    win0_0.index t (0 : Fin 3) = win0_9.index t (0 : Fin 3) ∧ win0_0.index t (1 : Fin 3) = win0_9.index t (1 : Fin 3)
    ∧ win0_0.index t (2 : Fin 3) = 0
    ∧ win0_3.index t (0 : Fin 2) = 0 ∧ win0_3.index t (1 : Fin 2) = 0
    ∧ win0_6.index t (0 : Fin 2) = 0 ∧ win0_6.index t (1 : Fin 2) = 0
    ∧ win0_9.index t (2 : Fin 3) = 0 ∧ win0_9.index t (0 : Fin 3) ≤ 3 ∧ win0_9.index t (1 : Fin 3) ≤ 3 :=
  (by decide +kernel : ∀ t : Fin grid0.N, _)

/-- Every (batch, row block) is some point's. -/
theorem idx_onto : ∀ (q0 : Fin 4) (q1 : Fin 4), ∃ t : Fin cfg0.N, win0_9.index t = ![q0.val, q1.val, 0] :=
  (by decide +kernel : ∀ (q0 : Fin 4) (q1 : Fin 4), ∃ t : Fin grid0.N, win0_9.index t = ![q0.val, q1.val, 0])

/-- The input block at a point, read where its rectangle lies in the array. -/
theorem read_x (c : Dev nD) (t : Fin cfg0.N) (p : Fin 512) (d : Fin 1024) (i : S4x2048x1024.Idx)
    (h0 : (i 0).val = win0_0.index t (0 : Fin 3)) (h1 : (i 1).val = win0_0.index t (1 : Fin 3) * 512 + p.val)
    (h2 : (i 2).val = win0_0.index t (2 : Fin 3) * 1024 + d.val) :
    iblk0 V c 0 t (ix3 (0 : Fin 1) p d) = V c main_arg0 i := by
  unfold iblk0
  show V c main_arg0 (((cfg0.win 0).blk t).view.emb (ix3 (0 : Fin 1) p d)) = V c main_arg0 i
  refine congrArg (V c main_arg0) (funext fun a => Fin.ext ?_)
  match a with
  | ⟨0, _⟩ => show win0_0.index t (0 : Fin 3) * 1 + 1 * 0 = (i 0).val; omega
  | ⟨1, _⟩ => show win0_0.index t (1 : Fin 3) * 512 + 1 * p.val = (i 1).val; omega
  | ⟨2, _⟩ => show win0_0.index t (2 : Fin 3) * 1024 + 1 * d.val = (i 2).val; omega

/-- The weight block at a point is the whole matrix. -/
theorem read_w (c : Dev nD) (t : Fin cfg0.N) (d e : Fin 1024)
    (h0 : win0_3.index t (0 : Fin 2) = 0) (h1 : win0_3.index t (1 : Fin 2) = 0) :
    iblk0 V c 3 t (ix2 d e) = V c main_v1 (ix2 d e) := by
  unfold iblk0
  show V c main_v1 (((cfg0.win 3).blk t).view.emb (ix2 d e)) = V c main_v1 (ix2 d e)
  refine congrArg (V c main_v1) (funext fun a => Fin.ext ?_)
  match a with
  | ⟨0, _⟩ => show win0_3.index t (0 : Fin 2) * 1024 + 1 * d.val = d.val; omega
  | ⟨1, _⟩ => show win0_3.index t (1 : Fin 2) * 1024 + 1 * e.val = e.val; omega

/-- The bias block at a point is the whole row. -/
theorem read_b (c : Dev nD) (t : Fin cfg0.N) (e : Fin 1024)
    (h0 : win0_6.index t (0 : Fin 2) = 0) (h1 : win0_6.index t (1 : Fin 2) = 0) :
    iblk0 V c 6 t (ix2 (0 : Fin 1) e) = V c main_v6 (ix2 (0 : Fin 1) e) := by
  unfold iblk0
  show V c main_v6 (((cfg0.win 6).blk t).view.emb (ix2 (0 : Fin 1) e)) = V c main_v6 (ix2 (0 : Fin 1) e)
  refine congrArg (V c main_v6) (funext fun a => Fin.ext ?_)
  match a with
  | ⟨0, _⟩ => show win0_6.index t (0 : Fin 2) * 1 + 1 * 0 = 0; omega
  | ⟨1, _⟩ => show win0_6.index t (1 : Fin 2) * 1024 + 1 * e.val = e.val; omega

/-- The projected queries as a function of the arrays the region finds. -/
abbrev result (c : Dev nD) : S4x2048x1024.Idx → EReal :=
  projArr (V c main_arg0) (V c main_v1) (V c main_v6)

/-- What a point writes back is its block of the projection of the whole input. -/
theorem flushed_eq (c : Dev nD) (t : Fin cfg0.N) :
    (dat0 V c).flushed 9 t = ((cfg0.win 9).blk t).view.read (Elt Ideal) (result V c) := by
  show (cfg0.win 9).cut (grid0.coords t) ((dat0 V c).after 9 t) = _
  rw [after0_9]
  unfold out0_9
  rw [View.canon_unit_zero hz3]
  simp only [View.ld_unit_zero (S := S1x512x1024) hz3, View.ld_unit_zero (S := S1024x1024) hz2, View.ld_unit_zero (S := S1x1024) hz2]

  obtain ⟨e00, e01, e02, ew0, ew1, eb0, eb1, eo2, b0, b1⟩ := idx_facts t
  funext j
  obtain ⟨u, p, e, rfl⟩ : ∃ (u : Fin 1) (p : Fin 512) (e : Fin 1024), j = ix3 u p e := ⟨j 0, j 1, j 2, eq_ix3 j⟩
  refine (ProjPay.pay_apply _ _ _ u p e).trans ?_
  show _ = projArr (V c main_arg0) (V c main_v1) (V c main_v6) (((cfg0.win 9).blk t).view.emb (ix3 u p e))
  unfold projArr
  have hu : u.val = 0 := by omega
  have i0 : ((((cfg0.win 9).blk t).view.emb (ix3 u p e)) 0).val = win0_9.index t (0 : Fin 3) * 1 + 1 * u.val := rfl
  have i1 : ((((cfg0.win 9).blk t).view.emb (ix3 u p e)) 1).val = win0_9.index t (1 : Fin 3) * 512 + 1 * p.val := rfl
  have i2 : ((((cfg0.win 9).blk t).view.emb (ix3 u p e)) 2).val = win0_9.index t (2 : Fin 3) * 1024 + 1 * e.val := rfl
  refine projRow_congr (fun d => read_x V c t p d _ ?_ ?_ ?_) (fun d e' => read_w V c t d e' ew0 ew1)
    (fun e' => read_b V c t e' eb0 eb1) (Fin.ext ?_)
  all_goals first
    | (show ((((cfg0.win 9).blk t).view.emb (ix3 u p e)) 0).val = _; omega)
    | (show ((((cfg0.win 9).blk t).view.emb (ix3 u p e)) 1).val = _; omega)
    | (show _ = ((((cfg0.win 9).blk t).view.emb (ix3 u p e)) 2).val; omega)
    | (show d.val = _; omega)

/-- An index of the array is in a point's block iff each coordinate is in the block's range on its axis. -/
theorem mem_blk (t : Fin cfg0.N) (i : S4x2048x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v9_0).slice (win0_9.rect t)).set ↔ _
  rw [View.set_slice_whole, Rect.mem_set_unit]
  exact Iff.rfl

/-- Every index of the array is in some point's block. -/
theorem cover (i : S4x2048x1024.Idx) :
    ∃ t : Fin cfg0.N, (cfg0.win 9).flush t = true ∧ i ∈ ((cfg0.win 9).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- After the run the array is the projection of the input the region found. -/
theorem final (c : Dev nD) : (dat0 V c).arrAt 9 cfg0.N = result V c :=
  (dat0 V c).arrAt_eq_of_cover 9 (result V c) (fun t _ => flushed_eq V c t) (cover)

end Q

namespace K

/-- The index maps over the grid: the input block and the output block move together, the weights and the bias are
    whole, and the block indices stay in range. -/
theorem idx_facts : ∀ t : Fin cfg0.N,
    win0_1.index t (0 : Fin 3) = win0_10.index t (0 : Fin 3) ∧ win0_1.index t (1 : Fin 3) = win0_10.index t (1 : Fin 3)
    ∧ win0_1.index t (2 : Fin 3) = 0
    ∧ win0_4.index t (0 : Fin 2) = 0 ∧ win0_4.index t (1 : Fin 2) = 0
    ∧ win0_7.index t (0 : Fin 2) = 0 ∧ win0_7.index t (1 : Fin 2) = 0
    ∧ win0_10.index t (2 : Fin 3) = 0 ∧ win0_10.index t (0 : Fin 3) ≤ 3 ∧ win0_10.index t (1 : Fin 3) ≤ 3 :=
  (by decide +kernel : ∀ t : Fin grid0.N, _)

/-- Every (batch, row block) is some point's. -/
theorem idx_onto : ∀ (q0 : Fin 4) (q1 : Fin 4), ∃ t : Fin cfg0.N, win0_10.index t = ![q0.val, q1.val, 0] :=
  (by decide +kernel : ∀ (q0 : Fin 4) (q1 : Fin 4), ∃ t : Fin grid0.N, win0_10.index t = ![q0.val, q1.val, 0])

/-- The input block at a point, read where its rectangle lies in the array. -/
theorem read_x (c : Dev nD) (t : Fin cfg0.N) (p : Fin 512) (d : Fin 1024) (i : S4x2048x1024.Idx)
    (h0 : (i 0).val = win0_1.index t (0 : Fin 3)) (h1 : (i 1).val = win0_1.index t (1 : Fin 3) * 512 + p.val)
    (h2 : (i 2).val = win0_1.index t (2 : Fin 3) * 1024 + d.val) :
    iblk0 V c 1 t (ix3 (0 : Fin 1) p d) = V c main_arg1 i := by
  unfold iblk0
  show V c main_arg1 (((cfg0.win 1).blk t).view.emb (ix3 (0 : Fin 1) p d)) = V c main_arg1 i
  refine congrArg (V c main_arg1) (funext fun a => Fin.ext ?_)
  match a with
  | ⟨0, _⟩ => show win0_1.index t (0 : Fin 3) * 1 + 1 * 0 = (i 0).val; omega
  | ⟨1, _⟩ => show win0_1.index t (1 : Fin 3) * 512 + 1 * p.val = (i 1).val; omega
  | ⟨2, _⟩ => show win0_1.index t (2 : Fin 3) * 1024 + 1 * d.val = (i 2).val; omega

/-- The weight block at a point is the whole matrix. -/
theorem read_w (c : Dev nD) (t : Fin cfg0.N) (d e : Fin 1024)
    (h0 : win0_4.index t (0 : Fin 2) = 0) (h1 : win0_4.index t (1 : Fin 2) = 0) :
    iblk0 V c 4 t (ix2 d e) = V c main_v3 (ix2 d e) := by
  unfold iblk0
  show V c main_v3 (((cfg0.win 4).blk t).view.emb (ix2 d e)) = V c main_v3 (ix2 d e)
  refine congrArg (V c main_v3) (funext fun a => Fin.ext ?_)
  match a with
  | ⟨0, _⟩ => show win0_4.index t (0 : Fin 2) * 1024 + 1 * d.val = d.val; omega
  | ⟨1, _⟩ => show win0_4.index t (1 : Fin 2) * 1024 + 1 * e.val = e.val; omega

/-- The bias block at a point is the whole row. -/
theorem read_b (c : Dev nD) (t : Fin cfg0.N) (e : Fin 1024)
    (h0 : win0_7.index t (0 : Fin 2) = 0) (h1 : win0_7.index t (1 : Fin 2) = 0) :
    iblk0 V c 7 t (ix2 (0 : Fin 1) e) = V c main_v7 (ix2 (0 : Fin 1) e) := by
  unfold iblk0
  show V c main_v7 (((cfg0.win 7).blk t).view.emb (ix2 (0 : Fin 1) e)) = V c main_v7 (ix2 (0 : Fin 1) e)
  refine congrArg (V c main_v7) (funext fun a => Fin.ext ?_)
  match a with
  | ⟨0, _⟩ => show win0_7.index t (0 : Fin 2) * 1 + 1 * 0 = 0; omega
  | ⟨1, _⟩ => show win0_7.index t (1 : Fin 2) * 1024 + 1 * e.val = e.val; omega

/-- The projected keys as a function of the arrays the region finds. -/
abbrev result (c : Dev nD) : S4x2048x1024.Idx → EReal :=
  projArr (V c main_arg1) (V c main_v3) (V c main_v7)

/-- What a point writes back is its block of the projection of the whole input. -/
theorem flushed_eq (c : Dev nD) (t : Fin cfg0.N) :
    (dat0 V c).flushed 10 t = ((cfg0.win 10).blk t).view.read (Elt Ideal) (result V c) := by
  show (cfg0.win 10).cut (grid0.coords t) ((dat0 V c).after 10 t) = _
  rw [after0_10]
  unfold out0_10
  rw [View.canon_unit_zero hz3]
  simp only [View.ld_unit_zero (S := S1x512x1024) hz3, View.ld_unit_zero (S := S1024x1024) hz2, View.ld_unit_zero (S := S1x1024) hz2]
  rw [ProjPay.pay3_eq]
  obtain ⟨e00, e01, e02, ew0, ew1, eb0, eb1, eo2, b0, b1⟩ := idx_facts t
  funext j
  obtain ⟨u, p, e, rfl⟩ : ∃ (u : Fin 1) (p : Fin 512) (e : Fin 1024), j = ix3 u p e := ⟨j 0, j 1, j 2, eq_ix3 j⟩
  refine (ProjPay.pay_apply _ _ _ u p e).trans ?_
  show _ = projArr (V c main_arg1) (V c main_v3) (V c main_v7) (((cfg0.win 10).blk t).view.emb (ix3 u p e))
  unfold projArr
  have hu : u.val = 0 := by omega
  have i0 : ((((cfg0.win 10).blk t).view.emb (ix3 u p e)) 0).val = win0_10.index t (0 : Fin 3) * 1 + 1 * u.val := rfl
  have i1 : ((((cfg0.win 10).blk t).view.emb (ix3 u p e)) 1).val = win0_10.index t (1 : Fin 3) * 512 + 1 * p.val := rfl
  have i2 : ((((cfg0.win 10).blk t).view.emb (ix3 u p e)) 2).val = win0_10.index t (2 : Fin 3) * 1024 + 1 * e.val := rfl
  refine projRow_congr (fun d => read_x V c t p d _ ?_ ?_ ?_) (fun d e' => read_w V c t d e' ew0 ew1)
    (fun e' => read_b V c t e' eb0 eb1) (Fin.ext ?_)
  all_goals first
    | (show ((((cfg0.win 10).blk t).view.emb (ix3 u p e)) 0).val = _; omega)
    | (show ((((cfg0.win 10).blk t).view.emb (ix3 u p e)) 1).val = _; omega)
    | (show _ = ((((cfg0.win 10).blk t).view.emb (ix3 u p e)) 2).val; omega)
    | (show d.val = _; omega)

/-- An index of the array is in a point's block iff each coordinate is in the block's range on its axis. -/
theorem mem_blk (t : Fin cfg0.N) (i : S4x2048x1024.Idx) :
    i ∈ ((cfg0.win 10).blk t).view.set ↔ ∀ a : Fin 3, win0_10.index t a * S1x512x1024.size a ≤ (i a).val
      ∧ (i a).val < win0_10.index t a * S1x512x1024.size a + S1x512x1024.size a := by
  show i ∈ ((View.whole main_v9_1).slice (win0_10.rect t)).set ↔ _
  rw [View.set_slice_whole, Rect.mem_set_unit]
  exact Iff.rfl

/-- Every index of the array is in some point's block. -/
theorem cover (i : S4x2048x1024.Idx) :
    ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_10.index t (0 : Fin 3) = (i 0).val := congrFun ht 0
  have q1 : win0_10.index t (1 : Fin 3) = (i 1).val / 512 := congrFun ht 1
  have q2 : win0_10.index t (2 : Fin 3) = 0 := congrFun ht 2
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 1024 ≤ (i 2).val ∧ (i 2).val < win0_10.index t (2 : Fin 3) * 1024 + 1024; omega

/-- After the run the array is the projection of the input the region found. -/
theorem final (c : Dev nD) : (dat0 V c).arrAt 10 cfg0.N = result V c :=
  (dat0 V c).arrAt_eq_of_cover 10 (result V c) (fun t _ => flushed_eq V c t) (cover)

end K

namespace Vv

/-- The index maps over the grid: the input block and the output block move together, the weights and the bias are
    whole, and the block indices stay in range. -/
theorem idx_facts : ∀ t : Fin cfg0.N,
    win0_2.index t (0 : Fin 3) = win0_11.index t (0 : Fin 3) ∧ win0_2.index t (1 : Fin 3) = win0_11.index t (1 : Fin 3)
    ∧ win0_2.index t (2 : Fin 3) = 0
    ∧ win0_5.index t (0 : Fin 2) = 0 ∧ win0_5.index t (1 : Fin 2) = 0
    ∧ win0_8.index t (0 : Fin 2) = 0 ∧ win0_8.index t (1 : Fin 2) = 0
    ∧ win0_11.index t (2 : Fin 3) = 0 ∧ win0_11.index t (0 : Fin 3) ≤ 3 ∧ win0_11.index t (1 : Fin 3) ≤ 3 :=
  (by decide +kernel : ∀ t : Fin grid0.N, _)

/-- Every (batch, row block) is some point's. -/
theorem idx_onto : ∀ (q0 : Fin 4) (q1 : Fin 4), ∃ t : Fin cfg0.N, win0_11.index t = ![q0.val, q1.val, 0] :=
  (by decide +kernel : ∀ (q0 : Fin 4) (q1 : Fin 4), ∃ t : Fin grid0.N, win0_11.index t = ![q0.val, q1.val, 0])

/-- The input block at a point, read where its rectangle lies in the array. -/
theorem read_x (c : Dev nD) (t : Fin cfg0.N) (p : Fin 512) (d : Fin 1024) (i : S4x2048x1024.Idx)
    (h0 : (i 0).val = win0_2.index t (0 : Fin 3)) (h1 : (i 1).val = win0_2.index t (1 : Fin 3) * 512 + p.val)
    (h2 : (i 2).val = win0_2.index t (2 : Fin 3) * 1024 + d.val) :
    iblk0 V c 2 t (ix3 (0 : Fin 1) p d) = V c main_arg2 i := by
  unfold iblk0
  show V c main_arg2 (((cfg0.win 2).blk t).view.emb (ix3 (0 : Fin 1) p d)) = V c main_arg2 i
  refine congrArg (V c main_arg2) (funext fun a => Fin.ext ?_)
  match a with
  | ⟨0, _⟩ => show win0_2.index t (0 : Fin 3) * 1 + 1 * 0 = (i 0).val; omega
  | ⟨1, _⟩ => show win0_2.index t (1 : Fin 3) * 512 + 1 * p.val = (i 1).val; omega
  | ⟨2, _⟩ => show win0_2.index t (2 : Fin 3) * 1024 + 1 * d.val = (i 2).val; omega

/-- The weight block at a point is the whole matrix. -/
theorem read_w (c : Dev nD) (t : Fin cfg0.N) (d e : Fin 1024)
    (h0 : win0_5.index t (0 : Fin 2) = 0) (h1 : win0_5.index t (1 : Fin 2) = 0) :
    iblk0 V c 5 t (ix2 d e) = V c main_v5 (ix2 d e) := by
  unfold iblk0
  show V c main_v5 (((cfg0.win 5).blk t).view.emb (ix2 d e)) = V c main_v5 (ix2 d e)
  refine congrArg (V c main_v5) (funext fun a => Fin.ext ?_)
  match a with
  | ⟨0, _⟩ => show win0_5.index t (0 : Fin 2) * 1024 + 1 * d.val = d.val; omega
  | ⟨1, _⟩ => show win0_5.index t (1 : Fin 2) * 1024 + 1 * e.val = e.val; omega

/-- The bias block at a point is the whole row. -/
theorem read_b (c : Dev nD) (t : Fin cfg0.N) (e : Fin 1024)
    (h0 : win0_8.index t (0 : Fin 2) = 0) (h1 : win0_8.index t (1 : Fin 2) = 0) :
    iblk0 V c 8 t (ix2 (0 : Fin 1) e) = V c main_v8 (ix2 (0 : Fin 1) e) := by
  unfold iblk0
  show V c main_v8 (((cfg0.win 8).blk t).view.emb (ix2 (0 : Fin 1) e)) = V c main_v8 (ix2 (0 : Fin 1) e)
  refine congrArg (V c main_v8) (funext fun a => Fin.ext ?_)
  match a with
  | ⟨0, _⟩ => show win0_8.index t (0 : Fin 2) * 1 + 1 * 0 = 0; omega
  | ⟨1, _⟩ => show win0_8.index t (1 : Fin 2) * 1024 + 1 * e.val = e.val; omega

/-- The projected values as a function of the arrays the region finds. -/
abbrev result (c : Dev nD) : S4x2048x1024.Idx → EReal :=
  projArr (V c main_arg2) (V c main_v5) (V c main_v8)

/-- What a point writes back is its block of the projection of the whole input. -/
theorem flushed_eq (c : Dev nD) (t : Fin cfg0.N) :
    (dat0 V c).flushed 11 t = ((cfg0.win 11).blk t).view.read (Elt Ideal) (result V c) := by
  show (cfg0.win 11).cut (grid0.coords t) ((dat0 V c).after 11 t) = _
  rw [after0_11]
  unfold out0_11
  rw [View.canon_unit_zero hz3]
  simp only [View.ld_unit_zero (S := S1x512x1024) hz3, View.ld_unit_zero (S := S1024x1024) hz2, View.ld_unit_zero (S := S1x1024) hz2]
  rw [ProjPay.pay14_eq]
  obtain ⟨e00, e01, e02, ew0, ew1, eb0, eb1, eo2, b0, b1⟩ := idx_facts t
  funext j
  obtain ⟨u, p, e, rfl⟩ : ∃ (u : Fin 1) (p : Fin 512) (e : Fin 1024), j = ix3 u p e := ⟨j 0, j 1, j 2, eq_ix3 j⟩
  refine (ProjPay.pay_apply _ _ _ u p e).trans ?_
  show _ = projArr (V c main_arg2) (V c main_v5) (V c main_v8) (((cfg0.win 11).blk t).view.emb (ix3 u p e))
  unfold projArr
  have hu : u.val = 0 := by omega
  have i0 : ((((cfg0.win 11).blk t).view.emb (ix3 u p e)) 0).val = win0_11.index t (0 : Fin 3) * 1 + 1 * u.val := rfl
  have i1 : ((((cfg0.win 11).blk t).view.emb (ix3 u p e)) 1).val = win0_11.index t (1 : Fin 3) * 512 + 1 * p.val := rfl
  have i2 : ((((cfg0.win 11).blk t).view.emb (ix3 u p e)) 2).val = win0_11.index t (2 : Fin 3) * 1024 + 1 * e.val := rfl
  refine projRow_congr (fun d => read_x V c t p d _ ?_ ?_ ?_) (fun d e' => read_w V c t d e' ew0 ew1)
    (fun e' => read_b V c t e' eb0 eb1) (Fin.ext ?_)
  all_goals first
    | (show ((((cfg0.win 11).blk t).view.emb (ix3 u p e)) 0).val = _; omega)
    | (show ((((cfg0.win 11).blk t).view.emb (ix3 u p e)) 1).val = _; omega)
    | (show _ = ((((cfg0.win 11).blk t).view.emb (ix3 u p e)) 2).val; omega)
    | (show d.val = _; omega)

/-- An index of the array is in a point's block iff each coordinate is in the block's range on its axis. -/
theorem mem_blk (t : Fin cfg0.N) (i : S4x2048x1024.Idx) :
    i ∈ ((cfg0.win 11).blk t).view.set ↔ ∀ a : Fin 3, win0_11.index t a * S1x512x1024.size a ≤ (i a).val
      ∧ (i a).val < win0_11.index t a * S1x512x1024.size a + S1x512x1024.size a := by
  show i ∈ ((View.whole main_v9_2).slice (win0_11.rect t)).set ↔ _
  rw [View.set_slice_whole, Rect.mem_set_unit]
  exact Iff.rfl

/-- Every index of the array is in some point's block. -/
theorem cover (i : S4x2048x1024.Idx) :
    ∃ t : Fin cfg0.N, (cfg0.win 11).flush t = true ∧ i ∈ ((cfg0.win 11).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win0_11.index t (0 : Fin 3) = (i 0).val := congrFun ht 0
  have q1 : win0_11.index t (1 : Fin 3) = (i 1).val / 512 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 1024 ≤ (i 2).val ∧ (i 2).val < win0_11.index t (2 : Fin 3) * 1024 + 1024; omega

/-- After the run the array is the projection of the input the region found. -/
theorem final (c : Dev nD) : (dat0 V c).arrAt 11 cfg0.N = result V c :=
  (dat0 V c).arrAt_eq_of_cover 11 (result V c) (fun t _ => flushed_eq V c t) (cover)

end Vv

end Cert.KernelIdeal.Region0

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.PayAttn.lean ====
/-
  The attention body's stored value, read at an index.

  The body holds a block of 512 query rows and the 2048 key rows and value rows of one batch. Entry (p, e) of what it
  stores is the attention output of query row p at e: the scores of row p against every key row, scaled; the row's
  maximum subtracted; exponentials; their sum divided out; the weights times the value rows.
-/
import proofs.«162677_j39676907885324_2_alg».proof.Proof.Gen.KernelIdeal.Skeleton
import proofs.«162677_j39676907885324_2_alg».proof.Proof.Spec
import proofs.«162677_j39676907885324_2_alg».proof.Proof.LibPlainDot
import proofs.«162677_j39676907885324_2_alg».proof.Proof.LibKeepdims
import proofs.«162677_j39676907885324_2_alg».proof.Proof.LibUnitAxis
import Idealize.ShloMosaic.Lib.Pipeline.Value
import Idealize.ShloMosaic.Lib.ValueIdx
import Idealize.ShloMosaic.PureOps.Ideal.Laws

noncomputable section

namespace Cert.KernelIdeal.AttnPay

open Cert.KernelIdeal Cert.KernelIdeal.Gen Cert.Attention Cert.Lib.UnitAxis
open Idealize.ShloMosaic Idealize.ShloMosaic.ValueIdx
open scoped BigOperators

local notation "DQK" => dot_S512x1024_S2048x1024_S512x2048_1_1_0_0_n_n

/-- The left operand of the scores' product is read at the result's row. -/
theorem qk_lhs_row (i : S512x2048.Idx) (q : DotDims.contr DQK |>.Idx) :
    (DotDims.lhsIdx DQK i q 0).val = (i 0).val := by
  unfold DotDims.lhsIdx
  rw [dif_neg (show ¬(0 : Fin S512x1024.rank) ∈ DotDims.lhsBatch DQK by decide),
    dif_pos (show (0 : Fin S512x1024.rank) ∈ DotDims.lhsNonContracting DQK by decide)]
  rfl

/-- The right operand of the scores' product is read at the key row the result's column names. -/
theorem qk_rhs_row (i : S512x2048.Idx) (q : DotDims.contr DQK |>.Idx) :
    (DotDims.rhsIdx DQK i q 0).val = (i 1).val := by
  unfold DotDims.rhsIdx
  rw [dif_neg (show ¬(0 : Fin S2048x1024.rank) ∈ DotDims.rhsBatch DQK by decide),
    dif_pos (show (0 : Fin S2048x1024.rank) ∈ DotDims.rhsNonContracting DQK by decide)]
  rfl

/-- The scores: query row p against key row k, both read along their last axis. -/
theorem qk_apply (A : FVec Ideal S512x1024 .bf16) (B : FVec Ideal S2048x1024 .bf16) (p : Fin 512) (k : Fin 2048) :
    matmul DQK none A B (constant S512x2048 .f32 0x00000000#32) (ix2 p k)
      = ∑ d : Fin 1024, A (ix2 p d) * B (ix2 k d) := by
  refine (Ideal.matmul_constant_zero_apply DQK none A B (ix2 p k)).trans ?_
  rw [← Equiv.sum_comp (contrEquiv1 DQK 1024 rfl rfl).symm]
  refine Finset.sum_congr rfl fun d _ => ?_
  have hd := contrEquiv1_symm_val DQK 1024 rfl rfl d
  have el : DotDims.lhsIdx DQK (ix2 p k) ((contrEquiv1 DQK 1024 rfl rfl).symm d) = ix2 p d :=
    funext fun a => Fin.ext (by
      match a with
      | ⟨0, _⟩ => exact qk_lhs_row _ _
      | ⟨1, _⟩ => exact ((DotDims.lhsIdx_val_of_single DQK rfl _ _).trans hd))
  have er : DotDims.rhsIdx DQK (ix2 p k) ((contrEquiv1 DQK 1024 rfl rfl).symm d) = ix2 k d :=
    funext fun a => Fin.ext (by
      match a with
      | ⟨0, _⟩ => exact qk_rhs_row _ _
      | ⟨1, _⟩ => exact ((DotDims.rhsIdx_val_of_single DQK rfl _ _).trans hd))
  rw [el, er]

/-- The lane maximum of row p: the fold of max from -inf over the row. -/
theorem rowmax_apply (S : FVec Ideal S512x2048 .f32) (p : Fin 512) :
    multiReduction .maximumf [1] S512 S 0xFF800000#32 reduces_S512x2048_S512 (.inl rfl) rfl (ix1 p)
      = rowMax fun k => S (ix2 p k) := by
  refine (Ideal.multiReduction_maximumf_single S 0xFF800000#32 reduces_S512x2048_S512 (.inl rfl) rfl (ix1 p)).trans ?_
  unfold rowMax
  show Finset.fold max (Ideal.ofBits .f32 0xFF800000#32) (fun k : Fin 2048 => S (reduces_S512x2048_S512.lift (ix1 p) k)) Finset.univ = _
  refine congrArg (fun f : Fin 2048 → EReal => Finset.fold max (Ideal.ofBits .f32 0xFF800000#32) f Finset.univ)
    (funext fun k => congrArg S (funext fun a => Fin.ext ?_))
  match a with
  | ⟨0, _⟩ => rfl
  | ⟨1, _⟩ => rfl

/-- The lane sum of row p. -/
theorem rowsum_apply (E : FVec Ideal S512x2048 .f32) (p : Fin 512) :
    multiReduction .add [1] S512 E 0x00000000#32 reduces_S512x2048_S512 (.inl rfl) rfl (ix1 p)
      = ∑ k : Fin 2048, E (ix2 p k) := by
  refine (Ideal.multiReduction_add_single E _ reduces_S512x2048_S512 (.inl rfl) rfl (ix1 p)).trans ?_
  refine Finset.sum_congr rfl fun k _ => congrArg E (funext fun a => Fin.ext ?_)
  match a with
  | ⟨0, _⟩ => rfl
  | ⟨1, _⟩ => rfl

/-- A row statistic kept as a column and spread back along the row reads the statistic of the row. -/
theorem keep_apply (v : FVec Ideal S512 .f32) (p : Fin 512) (k : Fin 2048) :
    broadcastTo S512x2048 (shapeCast S512x1 v shapeCasts_S512_S512x1) broadcasts_S512x1_S512x2048 (ix2 p k) = v (ix1 p) :=
  (Cert.Lib.Keepdims.bcastCol_apply _ broadcasts_S512x1_S512x2048 p k).trans
    (Cert.Lib.Keepdims.col_apply v shapeCasts_S512_S512x1 p 0)

/-- The exponentials of a block of scores, each row shifted down by its maximum. -/
abbrev expBlock (S : FVec Ideal S512x2048 .f32) : FVec Ideal S512x2048 .f32 :=
  exp (subf S (broadcastTo S512x2048 (shapeCast S512x1
    (multiReduction .maximumf [1] S512 S 0xFF800000#32 reduces_S512x2048_S512 (.inl rfl) rfl)
    shapeCasts_S512_S512x1) broadcasts_S512x1_S512x2048))

/-- Entry (p, k) of the shifted exponentials depends on row p of the scores only. -/
theorem expBlock_apply (S : FVec Ideal S512x2048 .f32) (p : Fin 512) (k : Fin 2048) :
    expBlock S (ix2 p k) = expRow (fun k => S (ix2 p k)) k := by
  show Ideal.exp (S (ix2 p k) - broadcastTo S512x2048 _ broadcasts_S512x1_S512x2048 (ix2 p k)) = _
  rw [keep_apply, rowmax_apply]
  rfl

/-- The softmax weights of a block of scores, read at (p, k). -/
theorem soft_apply (S : FVec Ideal S512x2048 .f32) (p : Fin 512) (k : Fin 2048) :
    truncf .bf16 (divf (expBlock S) (broadcastTo S512x2048 (shapeCast S512x1
        (multiReduction .add [1] S512 (expBlock S) 0x00000000#32 reduces_S512x2048_S512 (.inl rfl) rfl)
        shapeCasts_S512_S512x1) broadcasts_S512x1_S512x2048)) bitsLt_bf16_f32 (ix2 p k)
      = softRow (fun k => S (ix2 p k)) k := by
  show Ideal.div (expBlock S (ix2 p k)) (broadcastTo S512x2048 _ broadcasts_S512x1_S512x2048 (ix2 p k)) = _
  rw [keep_apply, rowsum_apply, expBlock_apply]
  unfold softRow
  exact congrArg (Ideal.div _) (Finset.sum_congr rfl fun k' _ => expBlock_apply S p k')

/-- The scaled scores of the block's query rows against the batch's key rows, read at (p, k). -/
theorem score_apply (x0 : Vec Ideal S1x512x1024 .bf16) (x1 : Vec Ideal S1x2048x1024 .bf16) (p : Fin 512) (k : Fin 2048) :
    mulf (F := Ideal) (matmul (φ₁ := .bf16) (φ₂ := .bf16) DQK none (shapeCast S512x1024 x0 shapeCasts_S1x512x1024_S512x1024)
        (shapeCast S2048x1024 x1 shapeCasts_S1x2048x1024_S2048x1024) (constant S512x2048 .f32 0x00000000#32))
      (broadcast S512x2048 (Scalar.ofBits .f32 0x3D000000#32)) (ix2 p k)
      = scoreRow (fun d => x0 (ix3 (0 : Fin 1) p d)) (fun k d => x1 (ix3 (0 : Fin 1) k d)) k := by
  show matmul DQK none _ _ _ (ix2 p k) * Ideal.ofBits .f32 0x3D000000#32 = _
  rw [qk_apply]
  unfold scoreRow
  refine congrArg (· * Ideal.ofBits .f32 0x3D000000#32) (Finset.sum_congr rfl fun d _ => ?_)
  rw [drop_apply x0 shapeCasts_S1x512x1024_S512x1024 p d, drop_apply x1 shapeCasts_S1x2048x1024_S2048x1024 k d]

/-- What the body stores, at (u, p, e): the attention output of the block's query row p at e. -/
theorem pay_apply (x0 : Vec Ideal S1x512x1024 .bf16) (x1 x2 : Vec Ideal S1x2048x1024 .bf16)
    (u : Fin 1) (p : Fin 512) (e : Fin 1024) :
    k1_pay1 (F := Ideal) x0 x1 x2 (ix3 u p e)
      = attnRow (fun d => x0 (ix3 (0 : Fin 1) p d)) (fun k d => x1 (ix3 (0 : Fin 1) k d))
          (fun k d => x2 (ix3 (0 : Fin 1) k d)) e := by
  unfold k1_pay1
  refine (add_apply _ shapeCasts_S512x1024_S1x512x1024 u p e).trans ?_
  refine (Cert.Lib.PlainDot.matmul_zero_apply dot_S512x2048_S2048x1024_S512x1024_1_0_0_1_n_n_wf none _ _ p e).trans ?_
  unfold attnRow
  refine Finset.sum_congr rfl fun k _ => ?_
  rw [drop_apply x2 shapeCasts_S1x2048x1024_S2048x1024 k e]
  refine congrArg (· * x2 (ix3 (0 : Fin 1) k e)) ?_
  refine (soft_apply _ p k).trans ?_
  exact congrArg (fun s => softRow s k) (funext fun k' => score_apply x0 x1 p k')

end Cert.KernelIdeal.AttnPay

end
-- ==== Proof.Region1.lean ====
/-
  The second region's result array as one function of the arrays it finds.

  The region's grid has a point per batch b and per block of 512 query rows. At a point the body holds the block of
  query rows (b, 512·r … 512·r + 511), all key rows and all value rows of batch b, and writes back the same block of
  rows of the result. Entry (p, e) of what it stores is the attention output of query row p; read through the
  blocks, that is entry (b, 512·r + p, e) of the attention of the whole arrays. The sixteen blocks tile the result, so
  after the run the result array is the attention of the three arrays the region found.
-/
import proofs.«162677_j39676907885324_2_alg».proof.Proof.Gen.KernelIdeal.Frame
import proofs.«162677_j39676907885324_2_alg».proof.Proof.PayAttn
import Idealize.ShloMosaic.Lib.Pipeline.Value

set_option maxRecDepth 16384

noncomputable section

namespace Cert.KernelIdeal.Region1

open Cert.KernelIdeal Cert.KernelIdeal.Gen Cert.Attention
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0, 0] : Fin 3 → Nat) = fun _ => 0 := funext fun a => by fin_cases a <;> rfl

/-- The index maps over the grid: the query block and the result block move together, the key and value blocks
    follow the batch only, and the block indices stay in range. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 ∧ win1_3.index t (0 : Fin 3) ≤ 3 ∧ win1_3.index t (1 : Fin 3) ≤ 3 :=
  (by decide +kernel : ∀ t : Fin grid1.N, _)

/-- Every (batch, row block) is some point's. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-- The query block at a point, read where its rectangle lies in the array. -/
theorem read_q (c : Dev nD) (t : Fin cfg1.N) (p : Fin 512) (d : Fin 1024) (i : S4x2048x1024.Idx)
    (h0 : (i 0).val = win1_0.index t (0 : Fin 3)) (h1 : (i 1).val = win1_0.index t (1 : Fin 3) * 512 + p.val)
    (h2 : (i 2).val = win1_0.index t (2 : Fin 3) * 1024 + d.val) :
    iblk1 V c 0 t (ix3 (0 : Fin 1) p d) = V c main_v9_0 i := by
  unfold iblk1
  show V c main_v9_0 (((cfg1.win 0).blk t).view.emb (ix3 (0 : Fin 1) p d)) = V c main_v9_0 i
  refine congrArg (V c main_v9_0) (funext fun a => Fin.ext ?_)
  match a with
  | ⟨0, _⟩ => show win1_0.index t (0 : Fin 3) * 1 + 1 * 0 = (i 0).val; omega
  | ⟨1, _⟩ => show win1_0.index t (1 : Fin 3) * 512 + 1 * p.val = (i 1).val; omega
  | ⟨2, _⟩ => show win1_0.index t (2 : Fin 3) * 1024 + 1 * d.val = (i 2).val; omega

/-- The key block at a point, read where its rectangle lies in the array. -/
theorem read_k (c : Dev nD) (t : Fin cfg1.N) (k : Fin 2048) (d : Fin 1024) (i : S4x2048x1024.Idx)
    (h0 : (i 0).val = win1_1.index t (0 : Fin 3)) (h1 : (i 1).val = win1_1.index t (1 : Fin 3) * 2048 + k.val)
    (h2 : (i 2).val = win1_1.index t (2 : Fin 3) * 1024 + d.val) :
    iblk1 V c 1 t (ix3 (0 : Fin 1) k d) = V c main_v9_1 i := by
  unfold iblk1
  show V c main_v9_1 (((cfg1.win 1).blk t).view.emb (ix3 (0 : Fin 1) k d)) = V c main_v9_1 i
  refine congrArg (V c main_v9_1) (funext fun a => Fin.ext ?_)
  match a with
  | ⟨0, _⟩ => show win1_1.index t (0 : Fin 3) * 1 + 1 * 0 = (i 0).val; omega
  | ⟨1, _⟩ => show win1_1.index t (1 : Fin 3) * 2048 + 1 * k.val = (i 1).val; omega
  | ⟨2, _⟩ => show win1_1.index t (2 : Fin 3) * 1024 + 1 * d.val = (i 2).val; omega

/-- The value block at a point, read where its rectangle lies in the array. -/
theorem read_v (c : Dev nD) (t : Fin cfg1.N) (k : Fin 2048) (d : Fin 1024) (i : S4x2048x1024.Idx)
    (h0 : (i 0).val = win1_2.index t (0 : Fin 3)) (h1 : (i 1).val = win1_2.index t (1 : Fin 3) * 2048 + k.val)
    (h2 : (i 2).val = win1_2.index t (2 : Fin 3) * 1024 + d.val) :
    iblk1 V c 2 t (ix3 (0 : Fin 1) k d) = V c main_v9_2 i := by
  unfold iblk1
  show V c main_v9_2 (((cfg1.win 2).blk t).view.emb (ix3 (0 : Fin 1) k d)) = V c main_v9_2 i
  refine congrArg (V c main_v9_2) (funext fun a => Fin.ext ?_)
  match a with
  | ⟨0, _⟩ => show win1_2.index t (0 : Fin 3) * 1 + 1 * 0 = (i 0).val; omega
  | ⟨1, _⟩ => show win1_2.index t (1 : Fin 3) * 2048 + 1 * k.val = (i 1).val; omega
  | ⟨2, _⟩ => show win1_2.index t (2 : Fin 3) * 1024 + 1 * d.val = (i 2).val; omega

/-- The result as a function of the arrays the region finds. -/
abbrev result (c : Dev nD) : S4x2048x1024.Idx → EReal :=
  attnArr (V c main_v9_0) (V c main_v9_1) (V c main_v9_2)

/-- What a point writes back is its block of the attention of the whole arrays. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S1x512x1024) hz, View.ld_unit_zero (S := S1x2048x1024) hz]
  obtain ⟨e00, e01, e02, e10, e11, e12, e20, e21, e22, e32, b0, b1⟩ := idx_facts t
  funext j
  obtain ⟨u, p, e, rfl⟩ : ∃ (u : Fin 1) (p : Fin 512) (e : Fin 1024), j = ix3 u p e := ⟨j 0, j 1, j 2, eq_ix3 j⟩
  refine (AttnPay.pay_apply _ _ _ u p e).trans ?_
  show _ = attnArr (V c main_v9_0) (V c main_v9_1) (V c main_v9_2) (((cfg1.win 3).blk t).view.emb (ix3 u p e))
  unfold attnArr
  have hu : u.val = 0 := by omega
  have i0 : ((((cfg1.win 3).blk t).view.emb (ix3 u p e)) 0).val = win1_3.index t (0 : Fin 3) * 1 + 1 * u.val := rfl
  have i1 : ((((cfg1.win 3).blk t).view.emb (ix3 u p e)) 1).val = win1_3.index t (1 : Fin 3) * 512 + 1 * p.val := rfl
  have i2 : ((((cfg1.win 3).blk t).view.emb (ix3 u p e)) 2).val = win1_3.index t (2 : Fin 3) * 1024 + 1 * e.val := rfl
  refine attnRow_congr (fun d => read_q V c t p d _ ?_ ?_ ?_) (fun k d => read_k V c t k d _ ?_ ?_ ?_)
    (fun k d => read_v V c t k d _ ?_ ?_ ?_) (Fin.ext ?_)
  all_goals first
    | (show ((((cfg1.win 3).blk t).view.emb (ix3 u p e)) 0).val = _; omega)
    | (show ((((cfg1.win 3).blk t).view.emb (ix3 u p e)) 1).val = _; omega)
    | (show _ = ((((cfg1.win 3).blk t).view.emb (ix3 u p e)) 2).val; omega)
    | (show d.val = _; omega)
    | (show k.val = _; omega)

/-- An index of the result is in a point's block iff each coordinate is in the block's range on its axis. -/
theorem mem_blk (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v10).slice (win1_3.rect t)).set ↔ _
  rw [View.set_slice_whole, Rect.mem_set_unit]
  exact Iff.rfl

/-- Every index of the result is in some point's block. -/
theorem cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- After the run the result array is the attention of the three arrays the region found. -/
theorem final (c : Dev nD) : (dat1 V c).arrAt 3 cfg1.N = result V c :=
  (dat1 V c).arrAt_eq_of_cover 3 (result V c) (fun t _ => flushed_eq V c t) (cover)

end Cert.KernelIdeal.Region1

end
-- ==== Proof.EntryContents.lean ====
/-
  What the first region finds in its arrays.

  Before the first region the host transposes each weight matrix (so that entry (d, e) is the weight at (e, d)),
  changes its float format (the identity on exact values), and gives each bias a unit row axis. The three inputs are
  as launched.
-/
import proofs.«162677_j39676907885324_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.ValueIdx Idealize.SL.Sem
open Idealize.ShloMosaic.StableHlo

/-- The transposed weights at (d, e) are the weights at (e, d). -/
theorem tr_apply (W : FVec Ideal S1024x1024 .f32) (d e : Fin 1024) :
    truncf .bf16 (transpose S1024x1024 [1, 0] W transposes_S1024x1024_S1024x1024_1_0) bitsLt_bf16_f32 (ix2 d e)
      = W (ix2 e d) := by
  show transpose S1024x1024 [1, 0] W transposes_S1024x1024_S1024x1024_1_0 (ix2 d e) = _
  refine transpose_apply [1, 0] W transposes_S1024x1024_S1024x1024_1_0 (ix2 d e) (ix2 e d) fun b => ?_
  match b with
  | ⟨0, _⟩ => rfl
  | ⟨1, _⟩ => rfl

/-- The bias with a unit row axis reads the bias at the column. -/
theorem row_apply {α : Type} (b : S1024.Idx → α) (e : Fin 1024) :
    shapeCast S1x1024 b shapeCasts_S1024_S1x1024 (ix2 (0 : Fin 1) e) = b (ix1 e) :=
  shapeCast_apply b shapeCasts_S1024_S1x1024 _ _ (by
    rw [Shape.rowMajor_val_one, Shape.rowMajor_val_two]
    show e.val = 0 * 1024 + e.val
    omega)

variable (m : (ℓ : Loc nD τ sig) → Buf (Elt Ideal) ℓ) (ρ : Dev nD → PrngReg)

theorem entry_x0 (c : Dev nD) : V1 m ρ c main_arg0 = m ((c : Thread nD τ).loc main_arg0) := by
  show StableHlo.after hostOps0 (W0 m ρ c) (Proc.devRef .tc main_arg0) = _
  after_results
theorem entry_x1 (c : Dev nD) : V1 m ρ c main_arg1 = m ((c : Thread nD τ).loc main_arg1) := by
  show StableHlo.after hostOps0 (W0 m ρ c) (Proc.devRef .tc main_arg1) = _
  after_results
theorem entry_x2 (c : Dev nD) : V1 m ρ c main_arg2 = m ((c : Thread nD τ).loc main_arg2) := by
  show StableHlo.after hostOps0 (W0 m ρ c) (Proc.devRef .tc main_arg2) = _
  after_results

theorem entry_w0 (c : Dev nD) : (V1 m ρ c main_v1 : S1024x1024.Idx → EReal)
    = truncf (F := Ideal) .bf16 (transpose S1024x1024 [1, 0] (m ((c : Thread nD τ).loc main_arg4)) transposes_S1024x1024_S1024x1024_1_0) bitsLt_bf16_f32 := by
  show StableHlo.after hostOps0 (W0 m ρ c) (Proc.devRef .tc main_v1) = _
  after_results
theorem entry_w1 (c : Dev nD) : (V1 m ρ c main_v3 : S1024x1024.Idx → EReal)
    = truncf (F := Ideal) .bf16 (transpose S1024x1024 [1, 0] (m ((c : Thread nD τ).loc main_arg6)) transposes_S1024x1024_S1024x1024_1_0) bitsLt_bf16_f32 := by
  show StableHlo.after hostOps0 (W0 m ρ c) (Proc.devRef .tc main_v3) = _
  after_results
theorem entry_w2 (c : Dev nD) : (V1 m ρ c main_v5 : S1024x1024.Idx → EReal)
    = truncf (F := Ideal) .bf16 (transpose S1024x1024 [1, 0] (m ((c : Thread nD τ).loc main_arg8)) transposes_S1024x1024_S1024x1024_1_0) bitsLt_bf16_f32 := by
  show StableHlo.after hostOps0 (W0 m ρ c) (Proc.devRef .tc main_v5) = _
  after_results

theorem entry_b0 (c : Dev nD) : (V1 m ρ c main_v6 : S1x1024.Idx → EReal)
    = shapeCast S1x1024 (m ((c : Thread nD τ).loc main_arg5)) shapeCasts_S1024_S1x1024 := by
  show StableHlo.after hostOps0 (W0 m ρ c) (Proc.devRef .tc main_v6) = _
  after_results
  rfl
theorem entry_b1 (c : Dev nD) : (V1 m ρ c main_v7 : S1x1024.Idx → EReal)
    = shapeCast S1x1024 (m ((c : Thread nD τ).loc main_arg7)) shapeCasts_S1024_S1x1024 := by
  show StableHlo.after hostOps0 (W0 m ρ c) (Proc.devRef .tc main_v7) = _
  after_results
  rfl
theorem entry_b2 (c : Dev nD) : (V1 m ρ c main_v8 : S1x1024.Idx → EReal)
    = shapeCast S1x1024 (m ((c : Thread nD τ).loc main_arg9)) shapeCasts_S1024_S1x1024 := by
  show StableHlo.after hostOps0 (W0 m ρ c) (Proc.devRef .tc main_v8) = _
  after_results
  rfl

end Cert.KernelIdeal.Entry

end
-- ==== Proof.SpecWhole.lean ====
/-
  The whole computation as one function of the nine launch arrays.

  Each of the three inputs goes through a linear layer: row (b, r) times the weight matrix transposed, plus the bias;
  entry (b, r, e) is the sum over d of x (b, r, d) * W (e, d), plus bias e. The result is the attention of the three
  projected arrays.
-/
import proofs.«162677_j39676907885324_2_alg».proof.Proof.Spec

noncomputable section

namespace Cert.Attention

open Idealize.ShloMosaic Idealize.ShloMosaic.ValueIdx
open scoped BigOperators

/-- A linear layer on every row of every batch: x Wᵀ + b. -/
def linearArr (X : SA.Idx → EReal) (W : (⟨2, ![1024, 1024]⟩ : Shape).Idx → EReal)
    (b : (⟨1, ![1024]⟩ : Shape).Idx → EReal) : SA.Idx → EReal := fun i =>
  projRow (fun d => X (ix3 (i 0) (i 1) d)) (fun d e => W (ix2 e d)) (fun e => b (ix1 e)) (i 2)

/-- Attention over the three projected inputs. -/
def attention (q k v : SA.Idx → EReal) (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal) : SA.Idx → EReal :=
  attnArr (linearArr q Wq bq) (linearArr k Wk bk) (linearArr v Wv bv)

end Cert.Attention

end
-- ==== Proof.KernelValue.lean ====
/-
  The idealized kernel's result as one function of the launch memory.

  The result's buffer ends at what the second region's write-backs leave: the attention of the three arrays that
  region found. Those are what the first region's write-backs leave: the projections of the three inputs by the
  transposed weights and the bias rows the host prepared, that is, the linear layers of the launch arrays.
-/
import proofs.«162677_j39676907885324_2_alg».proof.Proof.RunOut
import proofs.«162677_j39676907885324_2_alg».proof.Proof.Region0
import proofs.«162677_j39676907885324_2_alg».proof.Proof.Region1
import proofs.«162677_j39676907885324_2_alg».proof.Proof.EntryContents
import proofs.«162677_j39676907885324_2_alg».proof.Proof.SpecWhole

set_option maxRecDepth 16384

noncomputable section

namespace Cert.KernelIdeal.Whole

open Cert.KernelIdeal Cert.KernelIdeal.Gen Cert.Attention
open Idealize.ShloMosaic Idealize.ShloMosaic.TcCoe Idealize.ShloMosaic.ValueIdx Idealize.SL.Sem

variable (m : (ℓ : Loc nD τ sig) → Buf (Elt Ideal) ℓ) (ρ : Dev nD → PrngReg)

/-- The projected queries the first region leaves, from the launch memory: the linear layer of the input. -/
theorem proj_q (c : Dev nD) : (V2 m ρ c main_v9_0 : S4x2048x1024.Idx → EReal)
    = linearArr (m ((c : Thread nD τ).loc main_arg0)) (m ((c : Thread nD τ).loc main_arg4)) (m ((c : Thread nD τ).loc main_arg5)) := by
  have h1 : V2 m ρ c main_v9_0 = (dat0 (V1 m ρ) c).arrAt 9 cfg0.N := W2_arr m ρ c 9
  rw [h1, Region0.Q.final (V1 m ρ) c]
  funext i
  show projArr (V1 m ρ c main_arg0) (V1 m ρ c main_v1) (V1 m ρ c main_v6) i = _
  unfold projArr linearArr
  refine projRow_congr (fun d => ?_) (fun d e => ?_) (fun e => ?_) rfl
  · exact congrFun (Entry.entry_x0 m ρ c) _
  · exact (congrFun (Entry.entry_w0 m ρ c) _).trans (Entry.tr_apply _ d e)
  · exact (congrFun (Entry.entry_b0 m ρ c) _).trans (Entry.row_apply _ e)

/-- The projected keys the first region leaves, from the launch memory: the linear layer of the input. -/
theorem proj_k (c : Dev nD) : (V2 m ρ c main_v9_1 : S4x2048x1024.Idx → EReal)
    = linearArr (m ((c : Thread nD τ).loc main_arg1)) (m ((c : Thread nD τ).loc main_arg6)) (m ((c : Thread nD τ).loc main_arg7)) := by
  have h1 : V2 m ρ c main_v9_1 = (dat0 (V1 m ρ) c).arrAt 10 cfg0.N := W2_arr m ρ c 10
  rw [h1, Region0.K.final (V1 m ρ) c]
  funext i
  show projArr (V1 m ρ c main_arg1) (V1 m ρ c main_v3) (V1 m ρ c main_v7) i = _
  unfold projArr linearArr
  refine projRow_congr (fun d => ?_) (fun d e => ?_) (fun e => ?_) rfl
  · exact congrFun (Entry.entry_x1 m ρ c) _
  · exact (congrFun (Entry.entry_w1 m ρ c) _).trans (Entry.tr_apply _ d e)
  · exact (congrFun (Entry.entry_b1 m ρ c) _).trans (Entry.row_apply _ e)

/-- The projected values the first region leaves, from the launch memory: the linear layer of the input. -/
theorem proj_v (c : Dev nD) : (V2 m ρ c main_v9_2 : S4x2048x1024.Idx → EReal)
    = linearArr (m ((c : Thread nD τ).loc main_arg2)) (m ((c : Thread nD τ).loc main_arg8)) (m ((c : Thread nD τ).loc main_arg9)) := by
  have h1 : V2 m ρ c main_v9_2 = (dat0 (V1 m ρ) c).arrAt 11 cfg0.N := W2_arr m ρ c 11
  rw [h1, Region0.Vv.final (V1 m ρ) c]
  funext i
  show projArr (V1 m ρ c main_arg2) (V1 m ρ c main_v5) (V1 m ρ c main_v8) i = _
  unfold projArr linearArr
  refine projRow_congr (fun d => ?_) (fun d e => ?_) (fun e => ?_) rfl
  · exact congrFun (Entry.entry_x2 m ρ c) _
  · exact (congrFun (Entry.entry_w2 m ρ c) _).trans (Entry.tr_apply _ d e)
  · exact (congrFun (Entry.entry_b2 m ρ c) _).trans (Entry.row_apply _ e)

/-- The result as a function of the launch memory. -/
abbrev result (c : Dev nD) : S4x2048x1024.Idx → EReal :=
  attention (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The last boundary's contents at the result's buffer. -/
theorem result_eq (c : Dev nD) : (W3 m ρ c (Proc.devRef .tc main_v10) : S4x2048x1024.Idx → EReal) = result m c := by
  have h1 : W3 m ρ c (Proc.devRef .tc main_v10) = (dat1 (V2 m ρ) c).arrAt 3 cfg1.N := W3_arr m ρ c 3
  rw [h1, Region1.final (V2 m ρ) c]
  show attnArr (V2 m ρ c main_v9_0) (V2 m ρ c main_v9_1) (V2 m ρ c main_v9_2) = _
  rw [proj_q m ρ c, proj_k m ρ c, proj_v m ρ c]
  rfl

/-- The run, read: the result at the attention of the projected inputs, the arguments unchanged. -/
theorem run : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (result_eq m ρ c), (h c).2⟩) (Cert.KernelIdeal.Out.run m ρ)

end Cert.KernelIdeal.Whole

end
-- ==== Proof.RefValue.lean ====
/-
  The reference's result is the same function of the arguments.

  The reference computes the three linear layers with a product contracting the weights' second axis, divides the
  scores by 32, takes each row's maximum by a reduction from -inf (and once more the maximum with -inf, which changes
  nothing), subtracts it, exponentiates, sums each row from 0, divides, and multiplies by the projected values. Read at
  an index each stage is the corresponding row function; the division by 32 is the product with 1/32.
-/
import proofs.«162677_j39676907885324_2_alg».proof.Proof.Gen.ReferenceIdeal.Read
import proofs.«162677_j39676907885324_2_alg».proof.Proof.SpecWhole
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Cert.Attention
open Idealize.ShloMosaic Idealize.ShloMosaic.ValueIdx
open scoped BigOperators

/-- The reference's projected queries: the linear layer of its input. -/
theorem linear_q (x0 : (⟨S4x2048x1024, .f32⟩ : BufTy).Contents (Elt Ideal)) (x4 : (⟨S1024x1024, .f32⟩ : BufTy).Contents (Elt Ideal))
    (x5 : (⟨S1024, .f32⟩ : BufTy).Contents (Elt Ideal)) :
    val_main_v3 (F := Ideal) x0 x4 x5 = linearArr x0 x4 x5 := by
  funext j
  rw [val_main_v3_apply, val_main_v0_apply, val_main_v2_apply, val_main_v1_apply]
  unfold linearArr projRow
  have hl : ∀ k : Fin 1024, lidx_main_v0 j k = ix3 (j 0) (j 1) k := fun k => funext fun a => Fin.ext (by
    match a with
    | ⟨0, _⟩ => rfl
    | ⟨1, _⟩ => rfl
    | ⟨2, _⟩ => rfl)
  have hr : ∀ k : Fin 1024, ridx_main_v0 j k = ix2 (j 2) k := fun k => funext fun a => Fin.ext (by
    match a with
    | ⟨0, _⟩ => rfl
    | ⟨1, _⟩ => rfl)
  have hb : idx_main_v1 (idx_main_v2 j) = ix1 (j 2) := funext fun a => Fin.ext (by
    match a with
    | ⟨0, _⟩ => rfl)
  simp only [hl, hr, hb]
  rfl

/-- The reference's projected keys: the linear layer of its input. -/
theorem linear_k (x1 : (⟨S4x2048x1024, .f32⟩ : BufTy).Contents (Elt Ideal)) (x6 : (⟨S1024x1024, .f32⟩ : BufTy).Contents (Elt Ideal))
    (x7 : (⟨S1024, .f32⟩ : BufTy).Contents (Elt Ideal)) :
    val_main_v7 (F := Ideal) x1 x6 x7 = linearArr x1 x6 x7 := by
  funext j
  rw [val_main_v7_apply, val_main_v4_apply, val_main_v6_apply, val_main_v5_apply]
  unfold linearArr projRow
  have hl : ∀ k : Fin 1024, lidx_main_v4 j k = ix3 (j 0) (j 1) k := fun k => funext fun a => Fin.ext (by
    match a with
    | ⟨0, _⟩ => rfl
    | ⟨1, _⟩ => rfl
    | ⟨2, _⟩ => rfl)
  have hr : ∀ k : Fin 1024, ridx_main_v4 j k = ix2 (j 2) k := fun k => funext fun a => Fin.ext (by
    match a with
    | ⟨0, _⟩ => rfl
    | ⟨1, _⟩ => rfl)
  have hb : idx_main_v5 (idx_main_v6 j) = ix1 (j 2) := funext fun a => Fin.ext (by
    match a with
    | ⟨0, _⟩ => rfl)
  simp only [hl, hr, hb]
  rfl

/-- The reference's projected values: the linear layer of its input. -/
theorem linear_v (x2 : (⟨S4x2048x1024, .f32⟩ : BufTy).Contents (Elt Ideal)) (x8 : (⟨S1024x1024, .f32⟩ : BufTy).Contents (Elt Ideal))
    (x9 : (⟨S1024, .f32⟩ : BufTy).Contents (Elt Ideal)) :
    val_main_v11 (F := Ideal) x2 x8 x9 = linearArr x2 x8 x9 := by
  funext j
  rw [val_main_v11_apply, val_main_v8_apply, val_main_v10_apply, val_main_v9_apply]
  unfold linearArr projRow
  have hl : ∀ k : Fin 1024, lidx_main_v8 j k = ix3 (j 0) (j 1) k := fun k => funext fun a => Fin.ext (by
    match a with
    | ⟨0, _⟩ => rfl
    | ⟨1, _⟩ => rfl
    | ⟨2, _⟩ => rfl)
  have hr : ∀ k : Fin 1024, ridx_main_v8 j k = ix2 (j 2) k := fun k => funext fun a => Fin.ext (by
    match a with
    | ⟨0, _⟩ => rfl
    | ⟨1, _⟩ => rfl)
  have hb : idx_main_v9 (idx_main_v10 j) = ix1 (j 2) := funext fun a => Fin.ext (by
    match a with
    | ⟨0, _⟩ => rfl)
  simp only [hl, hr, hb]
  rfl

section Scores

variable (x0 x1 : (⟨S4x2048x1024, .f32⟩ : BufTy).Contents (Elt Ideal)) (x4 : (⟨S1024x1024, .f32⟩ : BufTy).Contents (Elt Ideal))
    (x5 : (⟨S1024, .f32⟩ : BufTy).Contents (Elt Ideal)) (x6 : (⟨S1024x1024, .f32⟩ : BufTy).Contents (Elt Ideal))
    (x7 : (⟨S1024, .f32⟩ : BufTy).Contents (Elt Ideal))

/-- The scaled scores: the quotient by 32 is the product with 1/32. -/
theorem score_ref (b : Fin 4) (r k : Fin 2048) :
    val_main_v14 (F := Ideal) x0 x1 x4 x5 x6 x7 (ix3 b r k)
      = scoreRow (fun d => val_main_v3 (F := Ideal) x0 x4 x5 (ix3 b r d))
          (fun k d => val_main_v7 (F := Ideal) x1 x6 x7 (ix3 b k d)) k := by
  rw [val_main_v14_apply, val_main_v12_apply, val_main_v13_apply, val_main_cst_apply]
  unfold scoreRow
  have hl : ∀ d : Fin 1024, lidx_main_v12 (ix3 b r k) d = ix3 b r d := fun d => funext fun a => Fin.ext (by
    match a with
    | ⟨0, _⟩ => rfl
    | ⟨1, _⟩ => rfl
    | ⟨2, _⟩ => rfl)
  have hr : ∀ d : Fin 1024, ridx_main_v12 (ix3 b r k) d = ix3 b k d := fun d => funext fun a => Fin.ext (by
    match a with
    | ⟨0, _⟩ => rfl
    | ⟨1, _⟩ => rfl
    | ⟨2, _⟩ => rfl)
  simp only [hl, hr]
  exact div_32 _

/-- Each row's maximum: the reduction from -inf, then the maximum with -inf. -/
theorem max_ref (b : Fin 4) (r : Fin 2048) :
    val_main_v17 (F := Ideal) x0 x1 x4 x5 x6 x7 (ix2 b r)
      = rowMax fun k => val_main_v14 (F := Ideal) x0 x1 x4 x5 x6 x7 (ix3 b r k) := by
  rw [val_main_v17_apply, val_main_v16_apply, val_main_cst_1_apply]
  unfold val_main_v15
  rw [Host.reduce_eq_fold_single FloatOps.maximumf _ _ reducesTo_S4x2048x2048_S4x2048_d2
    (by decide : S4x2048x2048.Reduces [2] S4x2048) h_S_ (ix2 b r)]
  unfold rowMax
  show max (Ideal.ofBits .f32 0xFF800000#32) (Finset.fold max (Ideal.ofBits .f32 0xFF800000#32)
      (fun k : Fin 2048 => val_main_v14 (F := Ideal) x0 x1 x4 x5 x6 x7
        ((by decide : S4x2048x2048.Reduces [2] S4x2048).lift (ix2 b r) k)) Finset.univ) = _
  rw [max_eq_right ((Finset.le_fold_max _).mpr (Or.inl le_rfl))]
  refine congrArg (fun f : Fin 2048 → EReal => Finset.fold max (Ideal.ofBits .f32 0xFF800000#32) f Finset.univ)
    (funext fun k => congrArg (val_main_v14 (F := Ideal) x0 x1 x4 x5 x6 x7) (funext fun a => Fin.ext ?_))
  match a with
  | ⟨0, _⟩ => rfl
  | ⟨1, _⟩ => rfl
  | ⟨2, _⟩ => rfl

/-- The exponentials of the scores shifted by their row's maximum. -/
theorem exp_ref (b : Fin 4) (r k : Fin 2048) :
    val_main_v21 (F := Ideal) x0 x1 x4 x5 x6 x7 (ix3 b r k)
      = expRow (fun k => val_main_v14 (F := Ideal) x0 x1 x4 x5 x6 x7 (ix3 b r k)) k := by
  rw [val_main_v21_apply, val_main_v20_apply, val_main_v19_apply, val_main_v18_apply]
  have hi : idx_main_v18 (idx_main_v19 (ix3 b r k)) = ix2 b r := funext fun a => Fin.ext (by
    match a with
    | ⟨0, _⟩ => rfl
    | ⟨1, _⟩ => rfl)
  rw [hi, max_ref]
  rfl

/-- Each row's sum of exponentials, from 0. -/
theorem sum_ref (b : Fin 4) (r : Fin 2048) :
    val_main_v22 (F := Ideal) x0 x1 x4 x5 x6 x7 (ix2 b r)
      = ∑ k : Fin 2048, expRow (fun k => val_main_v14 (F := Ideal) x0 x1 x4 x5 x6 x7 (ix3 b r k)) k := by
  rw [val_main_v22_apply, val_main_cst_2_apply]
  show Ideal.ofBits .f32 0x00000000#32 + _ = _
  rw [Ideal.ofBits_zero_f32, zero_add]
  refine Finset.sum_congr rfl fun k _ => ?_
  have hi : idx_main_v22 (ix2 b r) k = ix3 b r k := funext fun a => Fin.ext (by
    match a with
    | ⟨0, _⟩ => rfl
    | ⟨1, _⟩ => rfl
    | ⟨2, _⟩ => rfl)
  rw [hi, exp_ref]

/-- The softmax weights. -/
theorem soft_ref (b : Fin 4) (r k : Fin 2048) :
    val_main_v25 (F := Ideal) x0 x1 x4 x5 x6 x7 (ix3 b r k)
      = softRow (fun k => val_main_v14 (F := Ideal) x0 x1 x4 x5 x6 x7 (ix3 b r k)) k := by
  rw [val_main_v25_apply, val_main_v24_apply, val_main_v23_apply]
  have hi : idx_main_v23 (idx_main_v24 (ix3 b r k)) = ix2 b r := funext fun a => Fin.ext (by
    match a with
    | ⟨0, _⟩ => rfl
    | ⟨1, _⟩ => rfl)
  rw [hi, sum_ref, exp_ref]
  rfl

end Scores

/-- The reference's result is the attention of the three linear layers of its arguments. -/
theorem result_eq (x0 x1 x2 : (⟨S4x2048x1024, .f32⟩ : BufTy).Contents (Elt Ideal)) (x4 : (⟨S1024x1024, .f32⟩ : BufTy).Contents (Elt Ideal))
    (x5 : (⟨S1024, .f32⟩ : BufTy).Contents (Elt Ideal)) (x6 : (⟨S1024x1024, .f32⟩ : BufTy).Contents (Elt Ideal))
    (x7 : (⟨S1024, .f32⟩ : BufTy).Contents (Elt Ideal)) (x8 : (⟨S1024x1024, .f32⟩ : BufTy).Contents (Elt Ideal))
    (x9 : (⟨S1024, .f32⟩ : BufTy).Contents (Elt Ideal)) :
    val_main_v26 (F := Ideal) x0 x1 x2 x4 x5 x6 x7 x8 x9 = attention x0 x1 x2 x4 x5 x6 x7 x8 x9 := by
  funext i
  obtain ⟨b, r, e, rfl⟩ : ∃ (b : Fin 4) (r : Fin 2048) (e : Fin 1024), i = ix3 b r e := ⟨i 0, i 1, i 2, eq_ix3 i⟩
  rw [val_main_v26_apply]
  unfold attention
  rw [← linear_q x0 x4 x5, ← linear_k x1 x6 x7, ← linear_v x2 x8 x9]
  unfold attnArr attnRow
  refine Finset.sum_congr rfl fun k _ => ?_
  have hl : lidx_main_v26 (ix3 b r e) k = ix3 b r k := funext fun a => Fin.ext (by
    match a with
    | ⟨0, _⟩ => rfl
    | ⟨1, _⟩ => rfl
    | ⟨2, _⟩ => rfl)
  have hr : ridx_main_v26 (ix3 b r e) k = ix3 b k e := funext fun a => Fin.ext (by
    match a with
    | ⟨0, _⟩ => rfl
    | ⟨1, _⟩ => rfl
    | ⟨2, _⟩ => rfl)
  rw [hl, hr, soft_ref]
  refine congrArg (· * val_main_v11 (F := Ideal) x2 x8 x9 (ix3 b k e)) ?_
  exact congrArg (fun s => softRow s k) (funext fun k' => score_ref x0 x1 x4 x5 x6 x7 b r k')

end Cert.ReferenceIdeal.RefValue

end
-- ==== Proof.lean ====
/-
  Projected scaled dot-product attention: a kernel in two regions against the plain formulation.

  Both programs take three inputs of shape [4, 2048, 1024], three weight matrices [1024, 1024] and three biases [1024]
  (and a mask neither reads). Each input goes through a linear layer, x Wᵀ + b. The scores of query row (b, r) against
  the key rows of batch b are scaled by 1/√1024 = 1/32; each row of scores is shifted by its maximum, exponentiated and
  divided by its sum; the result row is the weights times the value rows.

  The kernel computes the three linear layers in a first region, a block of 512 rows at a time, from weights the
  host has transposed and biases it has given a unit row axis; a second region computes the attention a block of 512
  query rows at a time against all the keys and values of the batch. The blocks of each region tile their arrays, so
  each region's arrays end as one function of what the region found, and the result is the attention of the three
  linear layers of the launch arrays. The reference computes the same function stage by stage on whole arrays; it
  divides the scores by 32 where the kernel multiplies by 1/32, which is the same on every extended real, and it takes
  the maximum with -inf once more, which changes nothing. No finiteness of the inputs is used.

  The kernel as printed and its idealization differ by no rewrite, so the idealization claim has nothing to state.
-/
import proofs.«162677_j39676907885324_2_alg».proof.Defs
import proofs.«162677_j39676907885324_2_alg».proof.Proof.Gen.Kernel
import proofs.«162677_j39676907885324_2_alg».proof.Proof.Gen.Kernel.Frame
import proofs.«162677_j39676907885324_2_alg».proof.Proof.Gen.KernelIdeal
import proofs.«162677_j39676907885324_2_alg».proof.Proof.Gen.KernelIdeal.Frame
import proofs.«162677_j39676907885324_2_alg».proof.Proof.Gen.ReferenceIdeal
import proofs.«162677_j39676907885324_2_alg».proof.Proof.Gen.Pre_finite_inputs
import proofs.«162677_j39676907885324_2_alg».proof.Proof.Gen.ReferenceIdeal.Run
import proofs.«162677_j39676907885324_2_alg».proof.Proof.Gen.ReferenceIdeal.Read
import proofs.«162677_j39676907885324_2_alg».proof.Proof.KernelValue
import proofs.«162677_j39676907885324_2_alg».proof.Proof.RefValue
import Idealize.ShloMosaic.Adequacy
import Idealize.ShloMosaic.Init

noncomputable section

namespace Cert.Proof

open Idealize.ShloMosaic Idealize.SL.Sem

/-- The printed kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the attention of the three linear layers of the
    arguments in their result: the kernel by its two regions' blocks, the reference stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq]
  obtain ⟨a0, a1, a2, -, a4, a5, a6, a7, a8, a9⟩ := hagree c
  rw [a0, a1, a2, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
